-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩
abbrev S100000x2 : Shape := ⟨2, ![100000, 2]⟩
abbrev S10000x2 : Shape := ⟨2, ![10000, 2]⟩
abbrev S700000x2 : Shape := ⟨2, ![700000, 2]⟩
abbrev S1x2 : Shape := ⟨2, ![1, 2]⟩

abbrev nBuf : Space → Nat
  | .hbm => 88
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000, .i32⟩
  | .hbm, ⟨11, _⟩ => ⟨S700000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S700000, .i32⟩
  | .hbm, ⟨28, _⟩ => ⟨S700000, .i1⟩
  | .hbm, ⟨29, _⟩ => ⟨S_, .i32⟩
  | .hbm, ⟨30, _⟩ => ⟨S700000, .i32⟩
  | .hbm, ⟨31, _⟩ => ⟨S700000, .i32⟩
  | .hbm, ⟨32, _⟩ => ⟨S700000, .i32⟩
  | .hbm, ⟨33, _⟩ => ⟨S700000x1, .i32⟩
  | .hbm, ⟨34, _⟩ => ⟨S700000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S700000, .f32⟩
  | .hbm, ⟨45, _⟩ => ⟨S100000x128, .f32⟩
  | .hbm, ⟨46, _⟩ => ⟨S_, .i32⟩
  | .hbm, ⟨47, _⟩ => ⟨S700000, .i32⟩
  | .hbm, ⟨48, _⟩ => ⟨S700000, .i1⟩
  | .hbm, ⟨49, _⟩ => ⟨S_, .i32⟩
  | .hbm, ⟨50, _⟩ => ⟨S700000, .i32⟩
  | .hbm, ⟨51, _⟩ => ⟨S700000, .i32⟩
  | .hbm, ⟨52, _⟩ => ⟨S700000, .i32⟩
  | .hbm, ⟨53, _⟩ => ⟨S700000x1, .i32⟩
  | .hbm, ⟨54, _⟩ => ⟨S700000x128, .f32⟩
  | .hbm, ⟨55, _⟩ => ⟨S700000x1, .f32⟩
  | .hbm, ⟨56, _⟩ => ⟨S700000x128, .f32⟩
  | .hbm, ⟨57, _⟩ => ⟨S700000x128, .f32⟩
  | .hbm, ⟨58, _⟩ => ⟨S_, .f32⟩
  | .hbm, ⟨59, _⟩ => ⟨S100000x128, .f32⟩
  | .hbm, ⟨60, _⟩ => ⟨S700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x2, .f32⟩
  | .hbm, ⟨69, _⟩ => ⟨S_, .i32⟩
  | .hbm, ⟨70, _⟩ => ⟨S700000, .i32⟩
  | .hbm, ⟨71, _⟩ => ⟨S700000, .i1⟩
  | .hbm, ⟨72, _⟩ => ⟨S_, .i32⟩
  | .hbm, ⟨73, _⟩ => ⟨S700000, .i32⟩
  | .hbm, ⟨74, _⟩ => ⟨S700000, .i32⟩
  | .hbm, ⟨75, _⟩ => ⟨S700000, .i32⟩
  | .hbm, ⟨76, _⟩ => ⟨S700000x1, .i32⟩
  | .hbm, ⟨77, _⟩ => ⟨S700000x2, .f32⟩
  | .hbm, ⟨78, _⟩ => ⟨S700000x1, .f32⟩
  | .hbm, ⟨79, _⟩ => ⟨S700000x2, .f32⟩
  | .hbm, ⟨80, _⟩ => ⟨S700000x2, .f32⟩
  | .hbm, ⟨81, _⟩ => ⟨S_, .f32⟩
  | .hbm, ⟨82, _⟩ => ⟨S100000x2, .f32⟩
  | .hbm, ⟨83, _⟩ => ⟨S700000x1, .i32⟩
  | .hbm, ⟨84, _⟩ => ⟨S100000x2, .f32⟩
  | .hbm, ⟨85, _⟩ => ⟨S1x2, .f32⟩
  | .hbm, ⟨86, _⟩ => ⟨S100000x2, .f32⟩
  | .hbm, ⟨87, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x2, .f32⟩
  | .local _ .vmem, ⟨8, _⟩ => ⟨S10000x2, .f32⟩
  | .local _ .vmem, ⟨9, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x2_S128x2_0_0 : ∀ a, (![0, 0] : Fin 2 → Nat) a + S128x2.size a ≤ S128x2.size a
  h_S128x2 : 0 < S128x2.numel
  inb_S10000x2_S10000x2_0_0 : ∀ a, (![0, 0] : Fin 2 → Nat) a + S10000x2.size a ≤ S10000x2.size a
  h_S10000x2 : 0 < S10000x2.numel
  bcast_S700000x1_S700000x2_0_1 : S700000x1.BroadcastsInDim S700000x2 (![0, 1] : Fin 2 → Fin S700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S10000x128_S128x2_S10000x2_1_0_0_1_n_n_wf : DotDims.WF S10000x128 S128x2 S10000x2 [1] [0] [0] [1] [] []
  gather_S100000x2_S700000x1_S700000x2_1_0_n_n_0_1_12_wf : GatherDims.WF S100000x2 S700000x1 S700000x2 [1] [0] [] [0] [] 1 ![1, 2]
  scatter_S100000x2_S700000x1_S700000x2_1_0_0_1_wf : ScatterDims.WF S100000x2 S700000x1 S700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def gather_S100000x2_S700000x1_S700000x2_1_0_n_n_0_1_12 : GatherDims S100000x2 S700000x1 S700000x2 where
  offsetDims := [1]
  collapsedSliceDims := [0]
  operandBatchingDims := []
  startIndicesBatchingDims := []
  startIndexMap := [0]
  indexVectorDim := 1
  sliceSizes := ![1, 2]
  wf := gather_S100000x2_S700000x1_S700000x2_1_0_n_n_0_1_12_wf
def scatter_S100000x2_S700000x1_S700000x2_1_0_0_1 : ScatterDims S100000x2 S700000x1 S700000x2 where
  updateWindowDims := [1]
  insertedWindowDims := [0]
  scatterDimsToOperandDims := [0]
  indexVectorDim := 1
  wf := scatter_S100000x2_S700000x1_S700000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x2 : Shape := ⟨2, ![100000, 2]⟩
abbrev S700000x2 : Shape := ⟨2, ![700000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S700000, .i32⟩
  | .hbm, ⟨28, _⟩ => ⟨S700000, .i1⟩
  | .hbm, ⟨29, _⟩ => ⟨S_, .i32⟩
  | .hbm, ⟨30, _⟩ => ⟨S700000, .i32⟩
  | .hbm, ⟨31, _⟩ => ⟨S700000, .i32⟩
  | .hbm, ⟨32, _⟩ => ⟨S700000, .i32⟩
  | .hbm, ⟨33, _⟩ => ⟨S700000x1, .i32⟩
  | .hbm, ⟨34, _⟩ => ⟨S700000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S700000, .f32⟩
  | .hbm, ⟨45, _⟩ => ⟨S100000x128, .f32⟩
  | .hbm, ⟨46, _⟩ => ⟨S_, .i32⟩
  | .hbm, ⟨47, _⟩ => ⟨S700000, .i32⟩
  | .hbm, ⟨48, _⟩ => ⟨S700000, .i1⟩
  | .hbm, ⟨49, _⟩ => ⟨S_, .i32⟩
  | .hbm, ⟨50, _⟩ => ⟨S700000, .i32⟩
  | .hbm, ⟨51, _⟩ => ⟨S700000, .i32⟩
  | .hbm, ⟨52, _⟩ => ⟨S700000, .i32⟩
  | .hbm, ⟨53, _⟩ => ⟨S700000x1, .i32⟩
  | .hbm, ⟨54, _⟩ => ⟨S700000x128, .f32⟩
  | .hbm, ⟨55, _⟩ => ⟨S700000x1, .f32⟩
  | .hbm, ⟨56, _⟩ => ⟨S700000x128, .f32⟩
  | .hbm, ⟨57, _⟩ => ⟨S700000x128, .f32⟩
  | .hbm, ⟨58, _⟩ => ⟨S_, .f32⟩
  | .hbm, ⟨59, _⟩ => ⟨S100000x128, .f32⟩
  | .hbm, ⟨60, _⟩ => ⟨S700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x2, .f32⟩
  | .hbm, ⟨69, _⟩ => ⟨S_, .i32⟩
  | .hbm, ⟨70, _⟩ => ⟨S700000, .i32⟩
  | .hbm, ⟨71, _⟩ => ⟨S700000, .i1⟩
  | .hbm, ⟨72, _⟩ => ⟨S_, .i32⟩
  | .hbm, ⟨73, _⟩ => ⟨S700000, .i32⟩
  | .hbm, ⟨74, _⟩ => ⟨S700000, .i32⟩
  | .hbm, ⟨75, _⟩ => ⟨S700000, .i32⟩
  | .hbm, ⟨76, _⟩ => ⟨S700000x1, .i32⟩
  | .hbm, ⟨77, _⟩ => ⟨S700000x2, .f32⟩
  | .hbm, ⟨78, _⟩ => ⟨S700000x1, .f32⟩
  | .hbm, ⟨79, _⟩ => ⟨S700000x2, .f32⟩
  | .hbm, ⟨80, _⟩ => ⟨S700000x2, .f32⟩
  | .hbm, ⟨81, _⟩ => ⟨S_, .f32⟩
  | .hbm, ⟨82, _⟩ => ⟨S100000x2, .f32⟩
  | .hbm, ⟨83, _⟩ => ⟨S700000x1, .i32⟩
  | .hbm, ⟨84, _⟩ => ⟨S100000x2, .f32⟩
  | .hbm, ⟨85, _⟩ => ⟨S1x2, .f32⟩
  | .hbm, ⟨86, _⟩ => ⟨S100000x2, .f32⟩
  | .hbm, ⟨87, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x2_0_1 : S700000x1.BroadcastsInDim S700000x2 (![0, 1] : Fin 2 → Fin S700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x2_S100000x2_1_0_0_1_n_n_wf : DotDims.WF S100000x128 S128x2 S100000x2 [1] [0] [0] [1] [] []
  gather_S100000x2_S700000x1_S700000x2_1_0_n_n_0_1_12_wf : GatherDims.WF S100000x2 S700000x1 S700000x2 [1] [0] [] [0] [] 1 ![1, 2]
  scatter_S100000x2_S700000x1_S700000x2_1_0_0_1_wf : ScatterDims.WF S100000x2 S700000x1 S700000x2 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S700000x1_S700000x2_1_0_n_n_0_1_12 : GatherDims S100000x2 S700000x1 S700000x2 where
  offsetDims := [1]
  collapsedSliceDims := [0]
  operandBatchingDims := []
  startIndicesBatchingDims := []
  startIndexMap := [0]
  indexVectorDim := 1
  sliceSizes := ![1, 2]
  wf := gather_S100000x2_S700000x1_S700000x2_1_0_n_n_0_1_12_wf
def scatter_S100000x2_S700000x1_S700000x2_1_0_0_1 : ScatterDims S100000x2 S700000x1 S700000x2 where
  updateWindowDims := [1]
  insertedWindowDims := [0]
  scatterDimsToOperandDims := [0]
  indexVectorDim := 1
  wf := scatter_S100000x2_S700000x1_S700000x2_1_0_0_1_wf

class Facts : Prop extends Facts₀ where

variable [Facts]
-- ==== Proof.KernelRun.lean ====
/-
  The whole program's run with its result named. The program is eight segments in a row: three stretches of host
  operations, the first row-tiled product, two more stretches, the second product, and a last stretch. Every
  segment takes the contents of all buffers at its entry to their contents at its exit, so after the last one
  every buffer holds the value of the fold of these eight steps from the launch memory; read at the result
  buffer this is the program's value, read at an argument it is the argument as launched.
-/
import proofs.«103848_j79577154060657_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    fold of the eight segments from the launch memory, read at that buffer, and the six arguments are as launched. -/
theorem run_out : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.Spec.lean ====
/-
  The two-layer graph convolution as one function of the six arguments and of two matrix products.

  The edge list holds 600000 (source, target) pairs; every node gets a loop edge, so there are 700000 edges. A node's
  degree is the number of edges that end in it; its weight is 1/√degree where the degree is positive and 0 elsewhere;
  an edge's weight is the product of its endpoints' weights. One layer multiplies the node features by a weight
  matrix, sends along every edge the source's row scaled by the edge's weight, adds up at every node what arrives, and
  adds the bias; the first layer is followed by max(·, 0). Both programs are this function; they differ only in how the
  two matrix products are computed, so the products are parameters here.
-/
import proofs.«103848_j79577154060657_1_alg».proof.ReferenceIdeal

noncomputable section

namespace Cert.Gcn.Spec

open Idealize.ShloMosaic Cert.ReferenceIdeal
open Cert.ReferenceIdeal.Facts₀ Cert.ReferenceIdeal.Facts

variable [Cert.ReferenceIdeal.Facts]
variable {F : FTy → Type} [FloatOps F]

/-- The sources of the 700000 edges: row 0 of the edge list, then every node once (its loop). -/
def sources (ei : IVec S2x600000 32) : IVec S700000 32 :=
  concatenate S700000 0 [⟨S600000, shapeCast S600000 (extractStridedSlice S1x600000 ![0, 0] ei slices_S2x600000_S1x600000_0_0) shapeCasts_S1x600000_S600000⟩, ⟨S100000, iotaInDim S100000 32 0⟩] concatenates_S600000_S100000_S700000_d0

/-- The targets of the 700000 edges: row 1 of the edge list, then every node once. -/
def targets (ei : IVec S2x600000 32) : IVec S700000 32 :=
  concatenate S700000 0 [⟨S600000, shapeCast S600000 (extractStridedSlice S1x600000 ![1, 0] ei slices_S2x600000_S1x600000_1_0) shapeCasts_S1x600000_S600000⟩, ⟨S100000, iotaInDim S100000 32 0⟩] concatenates_S600000_S100000_S700000_d0

/-- A node's degree: one unit added at the target of every edge. -/
def degree (col : IVec S700000 32) : FVec F S100000 .f32 :=
  Host.scatterAdd scatter_S100000_S700000x1_S700000_n_0_0_1 (broadcastInDim S100000 ![] bcast_S_S100000 (constant (F := F) S_ .f32 0x00000000#32)) (broadcastInDim S700000x1 ![0] bcast_S700000_S700000x1_0 col) (broadcastInDim S700000 ![] bcast_S_S700000 (constant (F := F) S_ .f32 0x3F800000#32))

/-- A node's weight from its degree d: 1/√d where d > 0, else 0. -/
def nodeWeightOf (d : FVec F S100000 .f32) : FVec F S100000 .f32 :=
  select (cmpf (F := F) .ogt d (broadcastInDim S100000 ![] bcast_S_S100000 (constant (F := F) S_ .f32 0x00000000#32))) (Host.rsqrt d) (broadcastInDim S100000 ![] bcast_S_S100000 (constant (F := F) S_ .f32 0x00000000#32))

/-- An index counted from the end (negative) is moved up by the number of nodes, as array indexing reads it. -/
def wrap (ix : IVec S700000 32) : IVec S700000 32 :=
  select (cmpi .slt ix (broadcastInDim S700000 ![] bcast_S_S700000 (constantI S_ 32 0#32))) (addi ix (broadcastInDim S700000 ![] bcast_S_S700000 (constantI S_ 32 100000#32))) ix

/-- An edge's weight: the product of the weights of its source and of its target. -/
def edgeWeightOf (nw : FVec F S100000 .f32) (row col : IVec S700000 32) : FVec F S700000 .f32 :=
  mulf (Host.gather gather_S100000_S700000x1_S700000_n_0_n_n_0_1_1 nw (broadcastInDim S700000x1 ![0] bcast_S700000_S700000x1_0 (wrap row)))
    (Host.gather gather_S100000_S700000x1_S700000_n_0_n_n_0_1_1 nw (broadcastInDim S700000x1 ![0] bcast_S700000_S700000x1_0 (wrap col)))

/-- The first layer after its matrix product h: rows sent along the edges, scaled, summed at the targets, the bias
    added, negative entries replaced by zero. -/
def firstLayer (row col : IVec S700000 32) (w : FVec F S700000 .f32) (b : FVec F S128 .f32) (h : FVec F S100000x128 .f32) :
    FVec F S100000x128 .f32 :=
  maximumf
    (addf
      (Host.scatterAdd scatter_S100000x128_S700000x1_S700000x128_1_0_0_1 (broadcastInDim S100000x128 ![] bcast_S_S100000x128 (constant (F := F) S_ .f32 0x00000000#32)) (broadcastInDim S700000x1 ![0] bcast_S700000_S700000x1_0 col)
        (mulf (Host.gather gather_S100000x128_S700000x1_S700000x128_1_0_n_n_0_1_1128 h (broadcastInDim S700000x1 ![0] bcast_S700000_S700000x1_0 (wrap row)))
          (broadcastInDim S700000x128 ![0, 1] bcast_S700000x1_S700000x128_0_1 (broadcastInDim S700000x1 ![0] bcast_S700000_S700000x1_0 w))))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The second layer after its matrix product h: the same aggregation on two columns, the bias added. -/
def secondLayer (row col : IVec S700000 32) (w : FVec F S700000 .f32) (b : FVec F S2 .f32) (h : FVec F S100000x2 .f32) :
    FVec F S100000x2 .f32 :=
  addf
    (Host.scatterAdd scatter_S100000x2_S700000x1_S700000x2_1_0_0_1 (broadcastInDim S100000x2 ![] bcast_S_S100000x2 (constant (F := F) S_ .f32 0x00000000#32)) (broadcastInDim S700000x1 ![0] bcast_S700000_S700000x1_0 col)
      (mulf (Host.gather gather_S100000x2_S700000x1_S700000x2_1_0_n_n_0_1_12 h (broadcastInDim S700000x1 ![0] bcast_S700000_S700000x1_0 (wrap row)))
        (broadcastInDim S700000x2 ![0, 1] bcast_S700000x1_S700000x2_0_1 (broadcastInDim S700000x1 ![0] bcast_S700000_S700000x1_0 w))))
    (broadcastInDim S100000x2 ![0, 1] bcast_S1x2_S100000x2_0_1 (broadcastInDim S1x2 ![1] bcast_S2_S1x2_1 b))

/-- The edge weights from the edge list alone. -/
def edgeWeight (ei : IVec S2x600000 32) : FVec F S700000 .f32 :=
  edgeWeightOf (nodeWeightOf (degree (targets ei))) (sources ei) (targets ei)

/-- The network over two given matrix products. -/
def net (mm1 : FVec F S100000x128 .f32 → FVec F S128x128 .f32 → FVec F S100000x128 .f32)
    (mm2 : FVec F S100000x128 .f32 → FVec F S128x2 .f32 → FVec F S100000x2 .f32)
    (x : FVec F S100000x128 .f32) (ei : IVec S2x600000 32) (w1 : FVec F S128x128 .f32) (b1 : FVec F S128 .f32)
    (w2 : FVec F S128x2 .f32) (b2 : FVec F S2 .f32) : FVec F S100000x2 .f32 :=
  secondLayer (sources ei) (targets ei) (edgeWeight ei) b2
    (mm2 (firstLayer (sources ei) (targets ei) (edgeWeight ei) b1 (mm1 x w1)) w2)

end Cert.Gcn.Spec

end
-- ==== Proof.Stretches.lean ====
/-
  The kernel program's host operations, stretch by stretch, as the network's pieces. Before the first product the
  host builds the edges' sources, targets and weights from the edge list; between the two products it aggregates the
  first product along the edges, adds the bias and replaces negative entries by zero; after the second product it
  aggregates again and adds the second bias. Each stretch is read once, over ANY contents of the buffers at its entry,
  so that the contents the products leave can be put in afterwards; a buffer no operation of a stretch writes keeps
  its contents.
-/
import proofs.«103848_j79577154060657_1_alg».proof.Proof.Gen.KernelIdeal.Launch
import proofs.«103848_j79577154060657_1_alg».proof.Proof.Gen.ReferenceIdeal
import proofs.«103848_j79577154060657_1_alg».proof.Proof.Spec
import Idealize.ShloMosaic.Lib.StableHlo.Run

set_option maxRecDepth 16384

noncomputable section

namespace Cert.Gcn.Stretch

open Idealize.ShloMosaic Idealize.ShloMosaic.TcCoe Idealize.SL.Sem Idealize.ShloMosaic.StableHlo
open Cert.KernelIdeal Cert.KernelIdeal.Gen

variable {F : FTy → Type} [FloatOps F]
variable (Wp : Valuation τ sig (Elt F))

/-! ## Up to the first product -/

/-- The buffers' contents where the first product starts, from the contents at launch. -/
abbrev atFirst : Valuation τ sig (Elt F) := after hostOps0_2 (after hostOps0_1 (after hostOps0 Wp))

theorem first_sources : atFirst Wp (Proc.devRef .tc main_v5) = Spec.sources (Wp (Proc.devRef .tc main_arg1)) := by
  after_results_simp <;> rfl

theorem first_targets : atFirst Wp (Proc.devRef .tc main_v6) = Spec.targets (Wp (Proc.devRef .tc main_arg1)) := by
  after_results_simp <;> rfl

theorem first_weight : atFirst Wp (Proc.devRef .tc main_v30) = Spec.edgeWeight (F := F) (Wp (Proc.devRef .tc main_arg1)) := by
  after_results_simp <;> rfl

theorem first_arg0 : atFirst Wp (Proc.devRef .tc main_arg0) = Wp (Proc.devRef .tc main_arg0) := by after_results_simp <;> rfl
theorem first_arg2 : atFirst Wp (Proc.devRef .tc main_arg2) = Wp (Proc.devRef .tc main_arg2) := by after_results_simp <;> rfl
theorem first_arg3 : atFirst Wp (Proc.devRef .tc main_arg3) = Wp (Proc.devRef .tc main_arg3) := by after_results_simp <;> rfl
theorem first_arg4 : atFirst Wp (Proc.devRef .tc main_arg4) = Wp (Proc.devRef .tc main_arg4) := by after_results_simp <;> rfl
theorem first_arg5 : atFirst Wp (Proc.devRef .tc main_arg5) = Wp (Proc.devRef .tc main_arg5) := by after_results_simp <;> rfl

/-! ## Between the two products -/

/-- The buffers' contents where the second product starts, from the contents where the first one ended. -/
abbrev atSecond : Valuation τ sig (Elt F) := after hostOps1_1 (after hostOps1 Wp)

theorem second_hidden : atSecond Wp (Proc.devRef .tc main_v48)
    = Spec.firstLayer (F := F) (Wp (Proc.devRef .tc main_v5)) (Wp (Proc.devRef .tc main_v6)) (Wp (Proc.devRef .tc main_v30))
        (Wp (Proc.devRef .tc main_arg3)) (Wp (Proc.devRef .tc main_v31)) := by
  after_results_simp <;> rfl

theorem second_sources : atSecond Wp (Proc.devRef .tc main_v5) = Wp (Proc.devRef .tc main_v5) := by after_results_simp <;> rfl
theorem second_targets : atSecond Wp (Proc.devRef .tc main_v6) = Wp (Proc.devRef .tc main_v6) := by after_results_simp <;> rfl
theorem second_weight : atSecond Wp (Proc.devRef .tc main_v30) = Wp (Proc.devRef .tc main_v30) := by after_results_simp <;> rfl
theorem second_arg4 : atSecond Wp (Proc.devRef .tc main_arg4) = Wp (Proc.devRef .tc main_arg4) := by after_results_simp <;> rfl
theorem second_arg5 : atSecond Wp (Proc.devRef .tc main_arg5) = Wp (Proc.devRef .tc main_arg5) := by after_results_simp <;> rfl

/-! ## After the second product -/

theorem last_result : after hostOps2 Wp (Proc.devRef .tc main_v65)
    = Spec.secondLayer (F := F) (Wp (Proc.devRef .tc main_v5)) (Wp (Proc.devRef .tc main_v6)) (Wp (Proc.devRef .tc main_v30))
        (Wp (Proc.devRef .tc main_arg5)) (Wp (Proc.devRef .tc main_v49)) := by
  after_results_simp <;> rfl

end Cert.Gcn.Stretch

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«103848_j79577154060657_1_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.TileProduct.lean ====
/-
  The two pallas calls of this kernel are row-tiled matrix products: grid point t takes rows
  10000·t … 10000·t + 9999 of the left operand and the whole right operand, and writes the product of the
  two into the same rows of the output. At the exact values rounding an operand to a narrower float format
  is the identity and a product accumulated into zero is the plain contraction sum, so entry (p, q) of the
  tile's product is ∑ₖ x(p, k) · w(k, q).
-/
import proofs.«103848_j79577154060657_1_alg».proof.Proof.Gen.KernelIdeal.Skeleton
import proofs.«103848_j79577154060657_1_alg».proof.Proof.LibBlockMatmul
import Idealize.ShloMosaic.PureOps.Ideal.Laws
import Idealize.ShloMosaic.Lib.ValueIdx
import Idealize.ShloMosaic.Lib.Pipeline.Value

noncomputable section

namespace Cert.Gcn.Tile

open Idealize.ShloMosaic Idealize.ShloMosaic.ValueIdx Cert.KernelIdeal Cert.KernelIdeal.Gen

/-- The first call's tile: a 10000 × 128 block times the 128 × 128 weight, entry by entry the sum over the
    128 contracted positions. -/
theorem pay0_apply (x0 : Vec Ideal S10000x128 .f32) (x1 : Vec Ideal S128x128 .f32) (j : S10000x128.Idx) :
    k0_pay1 (F := Ideal) x0 x1 j = ∑ k : Fin 128, (x0 (ix2 (j 0) k) : EReal) * (x1 (ix2 k (j 1)) : EReal) := by
  unfold k0_pay1
  exact Cert.BlockMatmul.matmul_zero_fin (M := 10000) (K := 128) (N := 128)
    dot_S10000x128_S128x128_S10000x128_1_0_0_1_n_n rfl rfl (fun _ _ => rfl) (fun _ _ => rfl) (fun _ _ => rfl) (fun _ _ => rfl)
    none _ _ j

/-- The second call's tile: a 10000 × 128 block times the 128 × 2 weight. -/
theorem pay1_apply (x0 : Vec Ideal S10000x128 .f32) (x1 : Vec Ideal S128x2 .f32) (j : S10000x2.Idx) :
    k1_pay1 (F := Ideal) x0 x1 j = ∑ k : Fin 128, (x0 (ix2 (j 0) k) : EReal) * (x1 (ix2 k (j 1)) : EReal) := by
  unfold k1_pay1
  rw [shapeCast_self]
  exact Cert.BlockMatmul.matmul_zero_fin (M := 10000) (K := 128) (N := 2)
    dot_S10000x128_S128x2_S10000x2_1_0_0_1_n_n rfl rfl (fun _ _ => rfl) (fun _ _ => rfl) (fun _ _ => rfl) (fun _ _ => rfl)
    none _ _ j

end Cert.Gcn.Tile

end
-- ==== Proof.TileArray.lean ====
/-
  From tiles to whole arrays. Each pallas call writes, at grid point t, the product of rows 10000·t … 10000·t + 9999
  of its left operand with its whole right operand into the same rows of its output. Entry (p, q) of that tile is
  ∑ₖ x(10000·t + p, k) · w(k, q), which is entry (10000·t + p, q) of the whole matrix product; the ten tiles cover the
  100000 rows, so after the call the output array IS the whole product of the two operand arrays as the call found
  them. Only the congruence of a finite sum is used: no law of the extended reals that would ask for finiteness.
-/
import proofs.«103848_j79577154060657_1_alg».proof.Proof.Gen.KernelIdeal.Frame
import proofs.«103848_j79577154060657_1_alg».proof.Proof.Gen.ReferenceIdeal
import proofs.«103848_j79577154060657_1_alg».proof.Proof.TileProduct
import Idealize.ShloMosaic.Lib.Pipeline.Value

set_option maxRecDepth 16384

noncomputable section

namespace Cert.Gcn.Tile

open Idealize.ShloMosaic Idealize.ShloMosaic.TcCoe Idealize.ShloMosaic.ValueIdx Idealize.SL.Sem
open Idealize.ShloMosaic.Pipeline (Dat)
open Cert.KernelIdeal Cert.KernelIdeal.Gen

/-- The whole product X · W₁ of a 100000 × 128 array with a 128 × 128 array, as the host computes it. -/
def product1 (X : FVec Ideal S100000x128 .f32) (W : FVec Ideal S128x128 .f32) : FVec Ideal S100000x128 .f32 :=
  Host.dotGeneral Cert.ReferenceIdeal.dot_S100000x128_S128x128_S100000x128_1_0_0_1_n_n none X W

/-- The whole product H · W₂ of a 100000 × 128 array with a 128 × 2 array, as the host computes it. -/
def product2 (X : FVec Ideal S100000x128 .f32) (W : FVec Ideal S128x2 .f32) : FVec Ideal S100000x2 .f32 :=
  Host.dotGeneral Cert.ReferenceIdeal.dot_S100000x128_S128x2_S100000x2_1_0_0_1_n_n none X W

theorem product1_apply (X : FVec Ideal S100000x128 .f32) (W : FVec Ideal S128x128 .f32) (i : S100000x128.Idx) :
    product1 X W i = ∑ k : Fin 128, (X (ix2 (i 0) k) : EReal) * (W (ix2 k (i 1)) : EReal) :=
  Cert.BlockMatmul.dotGeneral_fin (M := 100000) (K := 128) (N := 128)
    Cert.ReferenceIdeal.dot_S100000x128_S128x128_S100000x128_1_0_0_1_n_n rfl rfl (fun _ _ => rfl) (fun _ _ => rfl) (fun _ _ => rfl) (fun _ _ => rfl)
    none .single X W i

theorem product2_apply (X : FVec Ideal S100000x128 .f32) (W : FVec Ideal S128x2 .f32) (i : S100000x2.Idx) :
    product2 X W i = ∑ k : Fin 128, (X (ix2 (i 0) k) : EReal) * (W (ix2 k (i 1)) : EReal) :=
  Cert.BlockMatmul.dotGeneral_fin (M := 100000) (K := 128) (N := 2)
    Cert.ReferenceIdeal.dot_S100000x128_S128x2_S100000x2_1_0_0_1_n_n rfl rfl (fun _ _ => rfl) (fun _ _ => rfl) (fun _ _ => rfl) (fun _ _ => rfl)
    none .single X W i

/-! ## The blocks of the first call -/

variable (V : (c : Dev nD) → (b : Ref sig .tc) → Buf (Elt Ideal) ((c : Thread nD τ).loc b))

theorem hz : (![0, 0] : Fin 2 → Nat) = fun _ => 0 := funext fun a => by fin_cases a <;> rfl

/-- Where the three windows of the first call sit at grid point t: the left operand's and the output's blocks are the
    t-th block of 10000 rows, the right operand's block is the whole array. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 10000·t + p of the array. -/
theorem left0 (c : Dev nD) (t : Fin cfg0.N) (x : S10000x128.Idx) (i : S100000x128.Idx)
    (h0 : (i 0).val = 10000 * t.val + (x 0).val) (h1 : (i 1).val = (x 1).val) :
    (iblk0 V c 0 t : Vec Ideal S10000x128 .f32) x = (V c main_arg0 : S100000x128.Idx → Elt Ideal .f32) i := by
  obtain ⟨e0, e1, -, -, -, -⟩ := blocks0 t
  unfold iblk0
  rw [View.read_apply]
  show V c main_arg0 _ = V c main_arg0 _
  congr 1
  funext a
  apply Fin.ext
  match a with
  | ⟨0, _⟩ => show win0_0.index t 0 * 10000 + 1 * (x 0).val = (i 0).val; rw [e0, h0]; omega
  | ⟨1, _⟩ => show win0_0.index t 1 * 128 + 1 * (x 1).val = (i 1).val; rw [e1, h1]; omega

/-- The right operand's block at any point is the whole array. -/
theorem right0 (c : Dev nD) (t : Fin cfg0.N) (x : S128x128.Idx) :
    (iblk0 V c 1 t : Vec Ideal S128x128 .f32) x = (V c main_arg2 : S128x128.Idx → Elt Ideal .f32) x := by
  obtain ⟨-, -, e0, e1, -, -⟩ := blocks0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- An entry of a tile of 10000 rows starting at row 10000·n is the entry of the whole product in the same row and
    column: both are the sum over the 128 contracted positions of the same products. -/
theorem tile_entry0 (X : FVec Ideal S100000x128 .f32) (W : FVec Ideal S128x128 .f32)
    (x0 : Vec Ideal S10000x128 .f32) (x1 : Vec Ideal S128x128 .f32) (n : Nat)
    (hx0 : ∀ (x : S10000x128.Idx) (i : S100000x128.Idx), (i 0).val = 10000 * n + (x 0).val → (i 1).val = (x 1).val → x0 x = X i)
    (hx1 : ∀ x : S128x128.Idx, x1 x = W x)
    (j : S10000x128.Idx) (i : S100000x128.Idx) (h0 : (i 0).val = 10000 * n + (j 0).val) (h1 : (i 1).val = (j 1).val) :
    k0_pay1 (F := Ideal) x0 x1 j = product1 X W i := by
  refine (pay0_apply x0 x1 j).trans ((product1_apply X W i).trans ?_).symm
  refine Finset.sum_congr rfl fun k _ => ?_
  rw [hx0 (ix2 (j 0) k) (ix2 (i 0) k) h0 rfl, hx1 (ix2 k (j 1))]
  exact congrArg (fun q => (X (ix2 (i 0) k) : EReal) * (W (ix2 k q) : EReal)) (Fin.ext h1)

/-- What grid point t of the first call writes back is block t of the whole product of the two operand arrays. -/
theorem flushed0 (c : Dev nD) (t : Fin cfg0.N) :
    (dat0 V c).flushed 2 t = ((cfg0.win 2).blk t).view.read (Elt Ideal) (product1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e0, e1⟩ := blocks0 t
  funext j
  show k0_pay1 (F := Ideal) (iblk0 V c 0 t) (iblk0 V c 1 t) j = product1 (V c main_arg0) (V c main_arg2) (((cfg0.win 2).blk t).view.emb j)
  refine tile_entry0 (V c main_arg0) (V c main_arg2) (iblk0 V c 0 t) (iblk0 V c 1 t) t.val
    (fun x i h0 h1 => left0 V c t x i h0 h1) (fun x => right0 V c t x) j (((cfg0.win 2).blk t).view.emb j) ?_ ?_
  · show win0_2.index t (0 : Fin 2) * 10000 + 1 * (j 0).val = 10000 * t.val + (j 0).val
    rw [e0]; omega
  · show win0_2.index t (1 : Fin 2) * 128 + 1 * (j 1).val = (j 1).val
    rw [e1]; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The ten blocks cover the output: row r is in the block of point r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  refine ⟨t, flush0_2 t, ?_⟩
  rw [mem_blk0]
  obtain ⟨-, -, -, -, e0, e1⟩ := blocks0 t
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 128 ≤ (i 1).val ∧ (i 1).val < win0_2.index t (1 : Fin 2) * 128 + 128
    rw [e1]; omega

/-- After the first call its output array is the whole product of the two operand arrays as the call found them. -/
theorem array1 (c : Dev nD) : (dat0 V c).arrAt 2 cfg0.N = product1 (V c main_arg0) (V c main_arg2) :=
  (dat0 V c).arrAt_eq_of_cover 2 (product1 (V c main_arg0) (V c main_arg2)) (fun t _ => flushed0 V c t) cover0

/-! ## The blocks of the second call -/

/-- Where the three windows of the second call sit at grid point t. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 10000·t + p of the array. -/
theorem left1 (c : Dev nD) (t : Fin cfg1.N) (x : S10000x128.Idx) (i : S100000x128.Idx)
    (h0 : (i 0).val = 10000 * t.val + (x 0).val) (h1 : (i 1).val = (x 1).val) :
    (iblk1 V c 0 t : Vec Ideal S10000x128 .f32) x = (V c main_v48 : S100000x128.Idx → Elt Ideal .f32) i := by
  obtain ⟨e0, e1, -, -, -, -⟩ := blocks1 t
  unfold iblk1
  rw [View.read_apply]
  show V c main_v48 _ = V c main_v48 _
  congr 1
  funext a
  apply Fin.ext
  match a with
  | ⟨0, _⟩ => show win1_0.index t 0 * 10000 + 1 * (x 0).val = (i 0).val; rw [e0, h0]; omega
  | ⟨1, _⟩ => show win1_0.index t 1 * 128 + 1 * (x 1).val = (i 1).val; rw [e1, h1]; omega

/-- The right operand's block at any point is the whole array. -/
theorem right1 (c : Dev nD) (t : Fin cfg1.N) (x : S128x2.Idx) :
    (iblk1 V c 1 t : Vec Ideal S128x2 .f32) x = (V c main_arg4 : S128x2.Idx → Elt Ideal .f32) x := by
  obtain ⟨-, -, e0, e1, -, -⟩ := blocks1 t
  unfold iblk1
  rw [View.read_apply]
  show V c main_arg4 _ = V c main_arg4 _
  congr 1
  funext a
  apply Fin.ext
  match a with
  | ⟨0, _⟩ => show win1_1.index t 0 * 128 + 1 * (x 0).val = (x 0).val; rw [e0]; omega
  | ⟨1, _⟩ => show win1_1.index t 1 * 2 + 1 * (x 1).val = (x 1).val; rw [e1]; omega

/-- An entry of a tile of 10000 rows starting at row 10000·n is the entry of the whole product in the same row and
    column. -/
theorem tile_entry1 (X : FVec Ideal S100000x128 .f32) (W : FVec Ideal S128x2 .f32)
    (x0 : Vec Ideal S10000x128 .f32) (x1 : Vec Ideal S128x2 .f32) (n : Nat)
    (hx0 : ∀ (x : S10000x128.Idx) (i : S100000x128.Idx), (i 0).val = 10000 * n + (x 0).val → (i 1).val = (x 1).val → x0 x = X i)
    (hx1 : ∀ x : S128x2.Idx, x1 x = W x)
    (j : S10000x2.Idx) (i : S100000x2.Idx) (h0 : (i 0).val = 10000 * n + (j 0).val) (h1 : (i 1).val = (j 1).val) :
    k1_pay1 (F := Ideal) x0 x1 j = product2 X W i := by
  refine (pay1_apply x0 x1 j).trans ((product2_apply X W i).trans ?_).symm
  refine Finset.sum_congr rfl fun k _ => ?_
  rw [hx0 (ix2 (j 0) k) (ix2 (i 0) k) h0 rfl, hx1 (ix2 k (j 1))]
  exact congrArg (fun q => (X (ix2 (i 0) k) : EReal) * (W (ix2 k q) : EReal)) (Fin.ext h1)

/-- What grid point t of the second call writes back is block t of the whole product of the two operand arrays. -/
theorem flushed1 (c : Dev nD) (t : Fin cfg1.N) :
    (dat1 V c).flushed 2 t = ((cfg1.win 2).blk t).view.read (Elt Ideal) (product2 (V c main_v48) (V c main_arg4)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x2) hz]
  obtain ⟨-, -, -, -, e0, e1⟩ := blocks1 t
  funext j
  show k1_pay1 (F := Ideal) (iblk1 V c 0 t) (iblk1 V c 1 t) j = product2 (V c main_v48) (V c main_arg4) (((cfg1.win 2).blk t).view.emb j)
  refine tile_entry1 (V c main_v48) (V c main_arg4) (iblk1 V c 0 t) (iblk1 V c 1 t) t.val
    (fun x i h0 h1 => left1 V c t x i h0 h1) (fun x => right1 V c t x) j (((cfg1.win 2).blk t).view.emb j) ?_ ?_
  · show win1_2.index t (0 : Fin 2) * 10000 + 1 * (j 0).val = 10000 * t.val + (j 0).val
    rw [e0]; omega
  · show win1_2.index t (1 : Fin 2) * 2 + 1 * (j 1).val = (j 1).val
    rw [e1]; omega

/-- An index of the output array is in point t's block iff each coordinate is in the block's range on its axis. -/
theorem mem_blk1 (t : Fin cfg1.N) (i : S100000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v49).slice (win1_2.rect t)).set ↔ _
  rw [View.set_slice_whole, Rect.mem_set_unit]
  exact Iff.rfl

/-- The ten blocks cover the output: row r is in the block of point r / 10000. -/
theorem cover1 (i : S100000x2.Idx) : ∃ t : Fin cfg1.N, (cfg1.win 2).flush t = true ∧ i ∈ ((cfg1.win 2).blk t).view.set := by
  have hi0 : (i 0).val < 100000 := (i 0).isLt
  have hi1 : (i 1).val < 2 := (i 1).isLt
  have hN : cfg1.N = 10 := N_1
  obtain ⟨t, ht⟩ : ∃ t : Fin cfg1.N, t.val = (i 0).val / 10000 := ⟨⟨(i 0).val / 10000, by rw [hN]; omega⟩, rfl⟩
  refine ⟨t, flush1_2 t, ?_⟩
  rw [mem_blk1]
  obtain ⟨-, -, -, -, e0, e1⟩ := blocks1 t
  intro a
  match a with
  | ⟨0, _⟩ =>
    show win1_2.index t (0 : Fin 2) * 10000 ≤ (i 0).val ∧ (i 0).val < win1_2.index t (0 : Fin 2) * 10000 + 10000
    rw [e0, ht]; omega
  | ⟨1, _⟩ =>
    show win1_2.index t (1 : Fin 2) * 2 ≤ (i 1).val ∧ (i 1).val < win1_2.index t (1 : Fin 2) * 2 + 2
    rw [e1]; omega

/-- After the second call its output array is the whole product of the two operand arrays as the call found them. -/
theorem array2 (c : Dev nD) : (dat1 V c).arrAt 2 cfg1.N = product2 (V c main_v48) (V c main_arg4) :=
  (dat1 V c).arrAt_eq_of_cover 2 (product2 (V c main_v48) (V c main_arg4)) (fun t _ => flushed1 V c t) cover1

end Cert.Gcn.Tile

end
-- ==== Proof.KernelValue.lean ====
/-
  The kernel program's result as the network over the whole matrix products. Going back from the result buffer through
  the eight segments: the last stretch is the second layer of the second call's output; that output is the whole
  product of the hidden features with the second weight matrix; the hidden features are the first layer of the first
  call's output, which is the whole product of the input features with the first weight matrix; the edges' sources,
  targets and weights were made before the first call and no later segment writes them, and no segment writes an
  argument.
-/
import proofs.«103848_j79577154060657_1_alg».proof.Proof.Gen.KernelIdeal.Frame
import proofs.«103848_j79577154060657_1_alg».proof.Proof.Stretches
import proofs.«103848_j79577154060657_1_alg».proof.Proof.TileArray

set_option maxRecDepth 16384

noncomputable section

namespace Cert.Gcn.KernelValue

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg) (c : Dev nD)

/-! ## Where the first call ends -/

theorem sources4 : W4 m ρ c (Proc.devRef .tc main_v5) = Spec.sources (m ((c.tc : Thread nD τ).loc main_arg1)) :=
  (W4_of_ne m ρ c main_v5 (by decide)).trans (Stretch.first_sources (W0 m ρ c))

theorem targets4 : W4 m ρ c (Proc.devRef .tc main_v6) = Spec.targets (m ((c.tc : Thread nD τ).loc main_arg1)) :=
  (W4_of_ne m ρ c main_v6 (by decide)).trans (Stretch.first_targets (W0 m ρ c))

theorem weight4 : W4 m ρ c (Proc.devRef .tc main_v30) = Spec.edgeWeight (F := Ideal) (m ((c.tc : Thread nD τ).loc main_arg1)) :=
  (W4_of_ne m ρ c main_v30 (by decide)).trans (Stretch.first_weight (W0 m ρ c))

theorem bias4 : W4 m ρ c (Proc.devRef .tc main_arg3) = m ((c.tc : Thread nD τ).loc main_arg3) :=
  (W4_of_ne m ρ c main_arg3 (by decide)).trans (Stretch.first_arg3 (W0 m ρ c))

theorem weights4 : W4 m ρ c (Proc.devRef .tc main_arg4) = m ((c.tc : Thread nD τ).loc main_arg4) :=
  (W4_of_ne m ρ c main_arg4 (by decide)).trans (Stretch.first_arg4 (W0 m ρ c))

theorem lastBias4 : W4 m ρ c (Proc.devRef .tc main_arg5) = m ((c.tc : Thread nD τ).loc main_arg5) :=
  (W4_of_ne m ρ c main_arg5 (by decide)).trans (Stretch.first_arg5 (W0 m ρ c))

/-- The first call's output: the whole product of the features with the first weight matrix. -/
theorem product4 : W4 m ρ c (Proc.devRef .tc main_v31)
    = Tile.product1 (m ((c.tc : Thread nD τ).loc main_arg0)) (m ((c.tc : Thread nD τ).loc main_arg2)) :=
  (W4_arr m ρ c 2).trans ((Tile.array1 (V3 m ρ) c).trans
    (congrArg₂ Tile.product1 (Stretch.first_arg0 (W0 m ρ c)) (Stretch.first_arg2 (W0 m ρ c))))

/-! ## Where the second call starts and ends -/

/-- The hidden features the second call multiplies. -/
theorem hidden6 : W6 m ρ c (Proc.devRef .tc main_v48)
    = Spec.firstLayer (F := Ideal) (Spec.sources (m ((c.tc : Thread nD τ).loc main_arg1))) (Spec.targets (m ((c.tc : Thread nD τ).loc main_arg1)))
        (Spec.edgeWeight (m ((c.tc : Thread nD τ).loc main_arg1))) (m ((c.tc : Thread nD τ).loc main_arg3))
        (Tile.product1 (m ((c.tc : Thread nD τ).loc main_arg0)) (m ((c.tc : Thread nD τ).loc main_arg2))) :=
  (Stretch.second_hidden (W4 m ρ c)).trans (by rw [sources4, targets4, weight4, bias4, product4])

theorem weights6 : W6 m ρ c (Proc.devRef .tc main_arg4) = m ((c.tc : Thread nD τ).loc main_arg4) :=
  (Stretch.second_arg4 (W4 m ρ c)).trans (weights4 m ρ c)

theorem sources7 : W7 m ρ c (Proc.devRef .tc main_v5) = Spec.sources (m ((c.tc : Thread nD τ).loc main_arg1)) :=
  (W7_of_ne m ρ c main_v5 (by decide)).trans ((Stretch.second_sources (W4 m ρ c)).trans (sources4 m ρ c))

theorem targets7 : W7 m ρ c (Proc.devRef .tc main_v6) = Spec.targets (m ((c.tc : Thread nD τ).loc main_arg1)) :=
  (W7_of_ne m ρ c main_v6 (by decide)).trans ((Stretch.second_targets (W4 m ρ c)).trans (targets4 m ρ c))

theorem weight7 : W7 m ρ c (Proc.devRef .tc main_v30) = Spec.edgeWeight (F := Ideal) (m ((c.tc : Thread nD τ).loc main_arg1)) :=
  (W7_of_ne m ρ c main_v30 (by decide)).trans ((Stretch.second_weight (W4 m ρ c)).trans (weight4 m ρ c))

theorem lastBias7 : W7 m ρ c (Proc.devRef .tc main_arg5) = m ((c.tc : Thread nD τ).loc main_arg5) :=
  (W7_of_ne m ρ c main_arg5 (by decide)).trans ((Stretch.second_arg5 (W4 m ρ c)).trans (lastBias4 m ρ c))

/-- The second call's output: the whole product of the hidden features with the second weight matrix. -/
theorem product7 : W7 m ρ c (Proc.devRef .tc main_v49)
    = Tile.product2
        (Spec.firstLayer (F := Ideal) (Spec.sources (m ((c.tc : Thread nD τ).loc main_arg1))) (Spec.targets (m ((c.tc : Thread nD τ).loc main_arg1)))
          (Spec.edgeWeight (m ((c.tc : Thread nD τ).loc main_arg1))) (m ((c.tc : Thread nD τ).loc main_arg3))
          (Tile.product1 (m ((c.tc : Thread nD τ).loc main_arg0)) (m ((c.tc : Thread nD τ).loc main_arg2))))
        (m ((c.tc : Thread nD τ).loc main_arg4)) :=
  (W7_arr m ρ c 2).trans ((Tile.array2 (V6 m ρ) c).trans (congrArg₂ Tile.product2 (hidden6 m ρ c) (weights6 m ρ c)))

/-! ## The result -/

/-- After the last segment the result buffer holds the network over the two whole products. -/
theorem value : W8 m ρ c (Proc.devRef .tc main_v65)
    = Spec.net (F := Ideal) Tile.product1 Tile.product2
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (Stretch.last_result (W7 m ρ c)).trans (by rw [sources7, targets7, weight7, lastBias7, product7]; rfl)

end Cert.Gcn.KernelValue

end
-- ==== Proof.RefValue.lean ====
/-
  The reference program computes the network with the host's own matrix products: its result term, one composed
  expression of the argument arrays, is the network's definition written out, so the two agree by unfolding.
-/
import proofs.«103848_j79577154060657_1_alg».proof.Proof.RefRun
import proofs.«103848_j79577154060657_1_alg».proof.Proof.Spec

set_option maxRecDepth 16384

noncomputable section

namespace Cert.Gcn.RefValue

open Idealize.ShloMosaic Idealize.ShloMosaic.TcCoe Idealize.SL.Sem
open Cert.ReferenceIdeal Cert.ReferenceIdeal.ValueP Cert.Gcn.Spec

variable {F : FTy → Type} [FloatOps F]

/-- The host's product of the features with the first weight matrix. -/
abbrev hostProduct1 (l : FVec F S100000x128 .f32) (r : FVec F S128x128 .f32) : FVec F S100000x128 .f32 :=
  Host.dotGeneral dot_S100000x128_S128x128_S100000x128_1_0_0_1_n_n none l r

/-- The host's product of the hidden features with the second weight matrix. -/
abbrev hostProduct2 (l : FVec F S100000x128 .f32) (r : FVec F S128x2 .f32) : FVec F S100000x2 .f32 :=
  Host.dotGeneral dot_S100000x128_S128x2_S100000x2_1_0_0_1_n_n none l r

set_option maxHeartbeats 4000000 in
/-- The reference's result is the network over the host's two products. -/
theorem ref_value (m : (ℓ : Loc nD τ sig) → Buf (Elt F) ℓ) (c : Dev nD) :
    res_main_v65 m c = net (F := F) hostProduct1 hostProduct2
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v65 net secondLayer firstLayer edgeWeight edgeWeightOf nodeWeightOf degree wrap sources targets
  rfl

end Cert.Gcn.RefValue

end
-- ==== Proof.lean ====
/-
  A two-layer graph convolution on 100000 nodes and 600000 edges (plus one loop edge per node), the two dense feature
  transforms done by row-tiled pallas matrix products, against the same network with the host's matrix products.

  At the exact values both programs are ONE function of the six arguments: the host operations around the products are
  the same in the two programs (edge sources and targets, degrees, 1/√degree weights, gather of the transformed rows,
  scaling, scatter-add at the targets, bias, max with zero), and each pallas call leaves in its output array the whole
  product of its two operand arrays — a tile's entry and the whole product's entry are the same sum over the 128
  contracted positions, rounding the operands to a narrower format being the identity on exact values. No law of the
  extended reals beyond the congruence of a finite sum is used, so the precondition (finite inputs) is never opened.

  The three frames: the two kernel programs' are the generated ones; the reference's is its run with the result
  dropped. The idealization rewrote no operation, so there is nothing to preserve.
-/
import proofs.«103848_j79577154060657_1_alg».proof.Defs
import proofs.«103848_j79577154060657_1_alg».proof.Proof.Gen.Kernel
import proofs.«103848_j79577154060657_1_alg».proof.Proof.Gen.Kernel.Skeleton
import proofs.«103848_j79577154060657_1_alg».proof.Proof.Gen.Kernel.Launch
import proofs.«103848_j79577154060657_1_alg».proof.Proof.Gen.Kernel.Points
import proofs.«103848_j79577154060657_1_alg».proof.Proof.Gen.Kernel.Frame
import proofs.«103848_j79577154060657_1_alg».proof.Proof.Gen.KernelIdeal
import proofs.«103848_j79577154060657_1_alg».proof.Proof.Gen.KernelIdeal.Skeleton
import proofs.«103848_j79577154060657_1_alg».proof.Proof.Gen.KernelIdeal.Launch
import proofs.«103848_j79577154060657_1_alg».proof.Proof.Gen.KernelIdeal.Points
import proofs.«103848_j79577154060657_1_alg».proof.Proof.Gen.KernelIdeal.Frame
import proofs.«103848_j79577154060657_1_alg».proof.Proof.Gen.ReferenceIdeal
import proofs.«103848_j79577154060657_1_alg».proof.Proof.Gen.Pre_finite_inputs
import proofs.«103848_j79577154060657_1_alg».proof.Proof.KernelRun
import proofs.«103848_j79577154060657_1_alg».proof.Proof.KernelValue
import proofs.«103848_j79577154060657_1_alg».proof.Proof.RefRun
import proofs.«103848_j79577154060657_1_alg».proof.Proof.RefValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The network over the whole products is the network over the host's products: the products are the same
    functions. -/
theorem net_products (x : FVec Ideal Cert.ReferenceIdeal.S100000x128 .f32) (ei : IVec Cert.ReferenceIdeal.S2x600000 32)
    (w1 : FVec Ideal Cert.ReferenceIdeal.S128x128 .f32) (b1 : FVec Ideal Cert.ReferenceIdeal.S128 .f32)
    (w2 : FVec Ideal Cert.ReferenceIdeal.S128x2 .f32) (b2 : FVec Ideal Cert.ReferenceIdeal.S2 .f32) :
    Spec.net (F := Ideal) RefValue.hostProduct1 RefValue.hostProduct2 x ei w1 b1 w2 b2
      = Spec.net (F := Ideal) Tile.product1 Tile.product2 x ei w1 b1 w2 b2 := rfl

/-- Both idealized programs end with the network of the arguments in the result buffer. -/
theorem algebraic : Cert.algebraic_KernelIdeal_ReferenceIdeal := by
  intro m ρ m' ρ' _ hagree
  refine ⟨fun c => Spec.net (F := Ideal) Tile.product1 Tile.product2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (KernelValue.value m ρ c), (h c).2⟩) (KernelRun.run_out (F := Ideal) m ρ)
  · refine (θ_run Cert.ReferenceIdeal.defs _ _).mono (fun _ h c => ⟨(h c).1.trans ?_, (h c).2⟩)
      (Cert.ReferenceIdeal.ValueP.run (F := Ideal) m' ρ')
    rw [RefValue.ref_value, (hagree c).1, (hagree c).2.1, (hagree c).2.2.1, (hagree c).2.2.2.1, (hagree c).2.2.2.2.1,
      (hagree c).2.2.2.2.2]
    exact net_products _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
